-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x32 .f32) (main_arg3 : FVec F S32 .f32) (main_arg4 : FVec F S32x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S2000x128 : Shape := ⟨2, ![2000, 128]⟩
abbrev S2000x32 : Shape := ⟨2, ![2000, 32]⟩
abbrev S1700000x32 : Shape := ⟨2, ![1700000, 32]⟩
abbrev S1x32 : Shape := ⟨2, ![1, 32]⟩
abbrev S100000x16 : Shape := ⟨2, ![100000, 16]⟩
abbrev S2000x16 : Shape := ⟨2, ![2000, 16]⟩
abbrev S1700000x16 : Shape := ⟨2, ![1700000, 16]⟩
abbrev S1x16 : Shape := ⟨2, ![1, 16]⟩

abbrev nBuf : Space → Nat
  | .hbm => 83
  | .vmem => 16
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x32, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x1, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x16, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x16, .f32⟩
  | .hbm, ⟨74, _⟩ => ⟨S1700000x1, .f32⟩
  | .hbm, ⟨75, _⟩ => ⟨S1700000x16, .f32⟩
  | .hbm, ⟨76, _⟩ => ⟨S1700000x16, .f32⟩
  | .hbm, ⟨77, _⟩ => ⟨S_, .f32⟩
  | .hbm, ⟨78, _⟩ => ⟨S100000x16, .f32⟩
  | .hbm, ⟨79, _⟩ => ⟨S1700000x1, .i32⟩
  | .hbm, ⟨80, _⟩ => ⟨S100000x16, .f32⟩
  | .hbm, ⟨81, _⟩ => ⟨S1x16, .f32⟩
  | .hbm, ⟨82, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S128x32, .f32⟩
  | .local _ .vmem, ⟨3, _⟩ => ⟨S2000x32, .f32⟩
  | .local _ .vmem, ⟨4, _⟩ => ⟨S2000x32, .f32⟩
  | .local _ .vmem, ⟨5, _⟩ => ⟨S2000x32, .f32⟩
  | .local _ .vmem, ⟨6, _⟩ => ⟨S2000x32, .f32⟩
  | .local _ .vmem, ⟨7, _⟩ => ⟨S1x32, .f32⟩
  | .local _ .vmem, ⟨8, _⟩ => ⟨S32x16, .f32⟩
  | .local _ .vmem, ⟨9, _⟩ => ⟨S2000x16, .f32⟩
  | .local _ .vmem, ⟨10, _⟩ => ⟨S2000x16, .f32⟩
  | .local _ .vmem, ⟨11, _⟩ => ⟨S2000x16, .f32⟩
  | .local _ .vmem, ⟨12, _⟩ => ⟨S2000x16, .f32⟩
  | .local _ .vmem, ⟨13, _⟩ => ⟨S1x16, .f32⟩
  | .local _ .vmem, ⟨14, _⟩ => ⟨S2000x16, .f32⟩
  | .local _ .vmem, ⟨15, _⟩ => ⟨S2000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_9 : Ref sig .tc := ⟨.hbm, 65, rfl⟩
abbrev main_v46 : Ref sig .tc := ⟨.hbm, 66, rfl⟩
abbrev main_v47 : Ref sig .tc := ⟨.hbm, 67, rfl⟩
abbrev main_c_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S2000x32_S2000x32_0_0 : ∀ a, (![0, 0] : Fin 2 → Nat) a + S2000x32.size a ≤ S2000x32.size a
  h_S2000x32 : 0 < S2000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x16_S32x16_0_0 : ∀ a, (![0, 0] : Fin 2 → Nat) a + S32x16.size a ≤ S32x16.size a
  h_S32x16 : 0 < S32x16.numel
  inb_S2000x16_S2000x16_0_0 : ∀ a, (![0, 0] : Fin 2 → Nat) a + S2000x16.size a ≤ S2000x16.size a
  h_S2000x16 : 0 < S2000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S16_S1x16 : S16.ShapeCasts S1x16
  shapeCasts_S2000x16_S2000x16 : S2000x16.ShapeCasts S2000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2000x16 : S1x16.Broadcasts S2000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S2000x128_S128x32_S2000x32_1_0_0_1_n_n_wf : DotDims.WF S2000x128 S128x32 S2000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S2000x32_S32x16_S2000x16_1_0_0_1_n_n_wf : DotDims.WF S2000x32 S32x16 S2000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x16.size a ≤ S32x16.size a
  hwx1_2 : ∀ i : grid1.Coords, EltTy.bits .f32 = 32 ∨ (Rect.block (s := S32x16) S32x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x16.size a ≤ S100000x16.size a
  hwx1_3 : ∀ i : grid1.Coords, EltTy.bits .f32 = 32 ∨ (Rect.block (s := S100000x16) S2000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x16.size a ≤ S100000x16.size a
  hwx2_0 : ∀ i : grid2.Coords, EltTy.bits .f32 = 32 ∨ (Rect.block (s := S100000x16) S2000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x16.size a ≤ S100000x16.size a
  hwx2_2 : ∀ i : grid2.Coords, EltTy.bits .f32 = 32 ∨ (Rect.block (s := S100000x16) S2000x16.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S2000x32_S32x16_S2000x16_1_0_0_1_n_n : DotDims S2000x32 S32x16 S2000x16 where
  lhsContracting := [1]
  rhsContracting := [0]
  lhsNonContracting := [0]
  rhsNonContracting := [1]
  lhsBatch := []
  rhsBatch := []
  wf := dot_S2000x32_S32x16_S2000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S32x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S2000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S2000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S100000x16 : Shape := ⟨2, ![100000, 16]⟩
abbrev S1700000x16 : Shape := ⟨2, ![1700000, 16]⟩
abbrev S1x16 : Shape := ⟨2, ![1, 16]⟩

abbrev nBuf : Space → Nat
  | .hbm => 125
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x32, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x32, .f32⟩
  | .hbm, ⟨56, _⟩ => ⟨S1700000x1, .f32⟩
  | .hbm, ⟨57, _⟩ => ⟨S1700000x32, .f32⟩
  | .hbm, ⟨58, _⟩ => ⟨S1700000x32, .f32⟩
  | .hbm, ⟨59, _⟩ => ⟨S_, .f32⟩
  | .hbm, ⟨60, _⟩ => ⟨S100000x32, .f32⟩
  | .hbm, ⟨61, _⟩ => ⟨S1700000x1, .i32⟩
  | .hbm, ⟨62, _⟩ => ⟨S100000x32, .f32⟩
  | .hbm, ⟨63, _⟩ => ⟨S1x32, .f32⟩
  | .hbm, ⟨64, _⟩ => ⟨S100000x32, .f32⟩
  | .hbm, ⟨65, _⟩ => ⟨S100000x32, .f32⟩
  | .hbm, ⟨66, _⟩ => ⟨S_, .f32⟩
  | .hbm, ⟨67, _⟩ => ⟨S100000x32, .f32⟩
  | .hbm, ⟨68, _⟩ => ⟨S100000x32, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S1700000, .f32⟩
  | .hbm, ⟨74, _⟩ => ⟨S_, .f32⟩
  | .hbm, ⟨75, _⟩ => ⟨S100000, .f32⟩
  | .hbm, ⟨76, _⟩ => ⟨S1700000x1, .i32⟩
  | .hbm, ⟨77, _⟩ => ⟨S100000, .f32⟩
  | .hbm, ⟨78, _⟩ => ⟨S_, .f32⟩
  | .hbm, ⟨79, _⟩ => ⟨S100000, .f32⟩
  | .hbm, ⟨80, _⟩ => ⟨S100000, .i1⟩
  | .hbm, ⟨81, _⟩ => ⟨S100000, .f32⟩
  | .hbm, ⟨82, _⟩ => ⟨S_, .f32⟩
  | .hbm, ⟨83, _⟩ => ⟨S_, .f32⟩
  | .hbm, ⟨84, _⟩ => ⟨S100000, .f32⟩
  | .hbm, ⟨85, _⟩ => ⟨S100000, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000, .f32⟩
  | .hbm, ⟨104, _⟩ => ⟨S1700000, .f32⟩
  | .hbm, ⟨105, _⟩ => ⟨S100000x16, .f32⟩
  | .hbm, ⟨106, _⟩ => ⟨S_, .i32⟩
  | .hbm, ⟨107, _⟩ => ⟨S1700000, .i32⟩
  | .hbm, ⟨108, _⟩ => ⟨S1700000, .i1⟩
  | .hbm, ⟨109, _⟩ => ⟨S_, .i32⟩
  | .hbm, ⟨110, _⟩ => ⟨S1700000, .i32⟩
  | .hbm, ⟨111, _⟩ => ⟨S1700000, .i32⟩
  | .hbm, ⟨112, _⟩ => ⟨S1700000, .i32⟩
  | .hbm, ⟨113, _⟩ => ⟨S1700000x1, .i32⟩
  | .hbm, ⟨114, _⟩ => ⟨S1700000x16, .f32⟩
  | .hbm, ⟨115, _⟩ => ⟨S1700000x1, .f32⟩
  | .hbm, ⟨116, _⟩ => ⟨S1700000x16, .f32⟩
  | .hbm, ⟨117, _⟩ => ⟨S1700000x16, .f32⟩
  | .hbm, ⟨118, _⟩ => ⟨S_, .f32⟩
  | .hbm, ⟨119, _⟩ => ⟨S100000x16, .f32⟩
  | .hbm, ⟨120, _⟩ => ⟨S1700000x1, .i32⟩
  | .hbm, ⟨121, _⟩ => ⟨S100000x16, .f32⟩
  | .hbm, ⟨122, _⟩ => ⟨S1x16, .f32⟩
  | .hbm, ⟨123, _⟩ => ⟨S100000x16, .f32⟩
  | .hbm, ⟨124, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_cst_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_12 : Ref sig .tc := ⟨.hbm, 82, rfl⟩
abbrev main_call2_v0 : Ref sig .tc := ⟨.hbm, 83, rfl⟩
abbrev main_call2_v1 : Ref sig .tc := ⟨.hbm, 84, rfl⟩
abbrev main_v58 : Ref sig .tc := ⟨.hbm, 85, rfl⟩
abbrev main_c_13 : Ref sig .tc := ⟨.hbm, 86, rfl⟩
abbrev main_v59 : Ref sig .tc := ⟨.hbm, 87, rfl⟩
abbrev main_v60 : Ref sig .tc := ⟨.hbm, 88, rfl⟩
abbrev main_c_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_c_15 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x16_S100000x16_1_0_0_1_n_n_wf : DotDims.WF S100000x32 S32x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The kernel program's run, with its final memory named.

  The program is eight segments: three stretches of host operations, the first dense transform, a stretch,
  the second dense transform, a stretch, the last bias addition. The generated frame module gives the buffer
  contents at every segment boundary as a fold from the launch memory (`Gen.W0` … `Gen.W8`), one record per
  segment, and the proof that the program is the segments' run. Launching the segments with the library's
  theorem for a list of segments gives: every weakly fair execution terminates without a fault, and in the
  final state every buffer that lives for the whole program holds what the last boundary's contents `Gen.W8`
  say. The frame conjunct keeps only the argument buffers of this; the value conjunct also needs the result
  buffer, so the post here keeps them all.
-/
import proofs.«167079_j13975823581699_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which
-- takes unfolding plain definitions in a metavariable's type
set_option backward.isDefEq.respectTransparency.types false in
/-- From any memory with zero counters every weakly fair execution of the program terminates, nothing
    faulting, and in every final state each buffer that lives for the whole program holds the last
    boundary's contents. -/
theorem run_final : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result buffer lives for the whole program. -/
theorem result_unscoped : Proc.devRef .tc main_v60 ∈ Pipeline.ucRefs τ sig := mem_uc main_v60 (by decide)

end Cert.KernelIdeal.RunValue

end
-- ==== Proof.Stages.lean ====
/-
  The two-layer graph convolution, stage by stage, as functions of whole arrays at the exact values
  (floats are extended reals).

  The graph has N = 100000 nodes and E = 1600000 edges; every node gets one more edge to itself, so the edge
  list has E + N = 1700000 entries: sources `srcOf`, targets `dstOf`. The degree of a node counts the edges
  that point at it; `disOf` is degree^(-1/2) where the degree is positive and 0 elsewhere; the weight of an
  edge is the product of that factor at its two ends (`normOf`). One layer multiplies the feature table by a
  weight matrix (`lin1`, `lin2`), carries every row along every edge scaled by the edge's weight and adds up
  what arrives at each node (`aggregate32`, `aggregate16`), and adds the bias laid out as a row (`row32`, `row16`) to every row (`biasReluRow` also
  clips at zero; `addBiasRow`). The network is the second layer applied to the first: `network`.

  Both programs compute this composition; the aggregation is the same chain of gathers and scatter-additions
  on both sides, so it is carried as a named function and never opened.
-/
import proofs.«167079_j13975823581699_1_alg».proof.Proof.Gen.ReferenceIdeal
import Idealize.ShloMosaic.PureOps.Ideal

noncomputable section

namespace Cert.Gcn

open Idealize.ShloMosaic Cert.ReferenceIdeal Cert.ReferenceIdeal.Facts₀

/-- A float array of shape `S`, at the exact values. -/
abbrev FA (S : Shape) : Type := FVec Ideal S .f32
/-- An array of 32-bit integers of shape `S`. -/
abbrev IA (S : Shape) : Type := IVec S 32

/-- The sources of the E edges, then each node once (its edge to itself). -/
def srcOf (ei : IA S2x1600000) : IA S1700000 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

/-- The targets of the E edges, then each node once. -/
def dstOf (ei : IA S2x1600000) : IA S1700000 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

/-- A list of node numbers as a column of row indices: a negative number counts from the end (N is added). -/
def rowsOf (v : IA S1700000) : IA S1700000x1 :=
  broadcastInDim S1700000x1 ![0] bcast_S1700000_S1700000x1_0 (select (cmpi .slt v (broadcastInDim S1700000 ![] bcast_S_S1700000 (constantI S_ 32 0#32))) (addi v (broadcastInDim S1700000 ![] bcast_S_S1700000 (constantI S_ 32 100000#32))) v)

/-- A list of node numbers as a column, as it stands. -/
def colOf (v : IA S1700000) : IA S1700000x1 :=
  broadcastInDim S1700000x1 ![0] bcast_S1700000_S1700000x1_0 v

/-- The degree of every node: one unit added at the target of every edge. -/
def degOf (ei : IA S2x1600000) : FA S100000 :=
  Host.scatterAdd scatter_S100000_S1700000x1_S1700000_n_0_0_1 (broadcastInDim S100000 ![] bcast_S_S100000 (constant (F := Ideal) S_ .f32 0x00000000#32)) (colOf (dstOf ei)) (broadcastInDim S1700000 ![] bcast_S_S1700000 (constant (F := Ideal) S_ .f32 0x3F800000#32))

/-- degree^(-1/2) where the degree is positive, 0 elsewhere. -/
def disOf (ei : IA S2x1600000) : FA S100000 :=
  select (cmpf .ogt (degOf ei) (broadcastInDim S100000 ![] bcast_S_S100000 (constant (F := Ideal) S_ .f32 0x00000000#32))) (Host.rsqrt (F := Ideal) (degOf ei)) (broadcastInDim S100000 ![] bcast_S_S100000 (id (constant (F := Ideal) S_ .f32 0x00000000#32)))

/-- The weight of every edge: the node factor at its source times the node factor at its target. -/
def normOf (ei : IA S2x1600000) : FA S1700000 :=
  mulf (Host.gather gather_S100000_S1700000x1_S1700000_n_0_n_n_0_1_1 (disOf ei) (rowsOf (srcOf ei))) (Host.gather gather_S100000_S1700000x1_S1700000_n_0_n_n_0_1_1 (disOf ei) (rowsOf (dstOf ei)))

/-- One round of message passing on 32 columns: row `s e` of the table, times the weight of edge `e`, added
    into row `d e`, over all edges. -/
def aggregate32 (s d : IA S1700000) (nrm : FA S1700000) (h : FA S100000x32) : FA S100000x32 :=
  Host.scatterAdd scatter_S100000x32_S1700000x1_S1700000x32_1_0_0_1 (broadcastInDim S100000x32 ![] bcast_S_S100000x32 (constant (F := Ideal) S_ .f32 0x00000000#32)) (colOf d) (mulf (Host.gather gather_S100000x32_S1700000x1_S1700000x32_1_0_n_n_0_1_132 h (rowsOf s)) (broadcastInDim S1700000x32 ![0, 1] bcast_S1700000x1_S1700000x32_0_1 (broadcastInDim S1700000x1 ![0] bcast_S1700000_S1700000x1_0 nrm)))

/-- The same round on 16 columns. -/
def aggregate16 (s d : IA S1700000) (nrm : FA S1700000) (h : FA S100000x16) : FA S100000x16 :=
  Host.scatterAdd scatter_S100000x16_S1700000x1_S1700000x16_1_0_0_1 (broadcastInDim S100000x16 ![] bcast_S_S100000x16 (constant (F := Ideal) S_ .f32 0x00000000#32)) (colOf d) (mulf (Host.gather gather_S100000x16_S1700000x1_S1700000x16_1_0_n_n_0_1_116 h (rowsOf s)) (broadcastInDim S1700000x16 ![0, 1] bcast_S1700000x1_S1700000x16_0_1 (broadcastInDim S1700000x1 ![0] bcast_S1700000_S1700000x1_0 nrm)))

/-- The first dense transform: the N × 128 features times the 128 × 32 weights. -/
def lin1 (x : FA S100000x128) (w : FA S128x32) : FA S100000x32 :=
  Host.dotGeneral (F := Ideal) dot_S100000x128_S128x32_S100000x32_1_0_0_1_n_n none x w

/-- A bias row (one row of 32) added to every row, then clipped below at zero. -/
def biasReluRow (a : FA S100000x32) (row : FA S1x32) : FA S100000x32 :=
  maximumf (addf a (broadcastInDim S100000x32 ![0, 1] bcast_S1x32_S100000x32_0_1 row)) (broadcastInDim S100000x32 ![] bcast_S_S100000x32 (constant (F := Ideal) S_ .f32 0x00000000#32))

/-- The bias vector laid out as one row. -/
def row32 (b : FA S32) : FA S1x32 := broadcastInDim S1x32 ![1] bcast_S32_S1x32_1 b

/-- The second dense transform: N × 32 times 32 × 16. -/
def lin2 (h : FA S100000x32) (w : FA S32x16) : FA S100000x16 :=
  Host.dotGeneral (F := Ideal) dot_S100000x32_S32x16_S100000x16_1_0_0_1_n_n none h w

/-- A bias row (one row of 16) added to every row. -/
def addBiasRow (a : FA S100000x16) (row : FA S1x16) : FA S100000x16 :=
  addf a (broadcastInDim S100000x16 ![0, 1] bcast_S1x16_S100000x16_0_1 row)

/-- The bias vector laid out as one row. -/
def row16 (b : FA S16) : FA S1x16 := broadcastInDim S1x16 ![1] bcast_S16_S1x16_1 b

/-- The whole network: aggregate(x·W₁) + b₁, clipped at zero, then aggregate(·W₂) + b₂. -/
def network (x : FA S100000x128) (ei : IA S2x1600000) (w1 : FA S128x32) (b1 : FA S32) (w2 : FA S32x16) (b2 : FA S16) : FA S100000x16 :=
  addBiasRow (aggregate16 (srcOf ei) (dstOf ei) (normOf ei)
    (lin2 (biasReluRow (aggregate32 (srcOf ei) (dstOf ei) (normOf ei) (lin1 x w1)) (row32 b1)) w2)) (row16 b2)

end Cert.Gcn

end
-- ==== Proof.StageReads.lean ====
/-
  The dense stages of the network, read at an index.

  Rows are nodes. The first transform's entry (n, q) is the inner product of row n of the features with column
  q of the weights, a sum over the 128 shared coordinates; the second's is the same over 32. The bias stages
  add, at (n, q), entry q of the bias row; the first of them then takes the larger of the sum and zero. A bias
  vector laid out as one row by a reshape is the same row as the one laid out by a broadcast along axis 1.
-/
import proofs.«167079_j13975823581699_1_alg».proof.Proof.Stages
import Idealize.ShloMosaic.Lib.KernelVsHost
import Idealize.ShloMosaic.Lib.StackMember
import Idealize.ShloMosaic.Lib.ValueLayout
import Idealize.ShloMosaic.Lib.ValueIdx
import Idealize.ShloMosaic.Lib.Pipeline.Value

noncomputable section

namespace Cert.Gcn

open Idealize.ShloMosaic Idealize.ShloMosaic.ValueIdx Cert.ReferenceIdeal Cert.ReferenceIdeal.Facts₀

/-- Entry (n, q) of the first transform: row n of the features against column q of the weights. -/
theorem lin1_apply (x : FA S100000x128) (w : FA S128x32) (n : Fin 100000) (q : Fin 32) :
    lin1 x w (ix2 n q) = ∑ k : Fin 128, x (ix2 n k) * w (ix2 k q) := by
  unfold lin1
  exact StackMember.dotGeneral_plain_apply (m := 100000) (n := 32) (k := 128) none x w n q

/-- Entry (n, q) of the second transform: row n of the hidden table against column q of the weights. -/
theorem lin2_apply (h : FA S100000x32) (w : FA S32x16) (n : Fin 100000) (q : Fin 16) :
    lin2 h w (ix2 n q) = ∑ k : Fin 32, h (ix2 n k) * w (ix2 k q) := by
  unfold lin2
  exact StackMember.dotGeneral_plain_apply (m := 100000) (n := 16) (k := 32) none h w n q

/-- Entry (n, q) after the first bias and the clipping: the larger of a(n, q) + row(q) and zero. -/
theorem biasReluRow_apply (a : FA S100000x32) (row : FA S1x32) (n : Fin 100000) (q : Fin 32) :
    biasReluRow a row (ix2 n q) = max (a (ix2 n q) + row (ix2 (0 : Fin 1) q)) (Ideal.ofBits .f32 0x00000000#32) := by
  have hb := broadcastInDim_oneRow_apply (m := 100000) (n := 32) bcast_S1x32_S100000x32_0_1 row n q
  unfold biasReluRow
  show max (a (ix2 n q) + broadcastInDim S100000x32 ![0, 1] bcast_S1x32_S100000x32_0_1 row (ix2 n q)) (Ideal.ofBits .f32 0x00000000#32) = _
  rw [hb]

/-- Entry (n, q) after the last bias: a(n, q) + row(q). -/
theorem addBiasRow_apply (a : FA S100000x16) (row : FA S1x16) (n : Fin 100000) (q : Fin 16) :
    addBiasRow a row (ix2 n q) = a (ix2 n q) + row (ix2 (0 : Fin 1) q) := by
  have hb := broadcastInDim_oneRow_apply (m := 100000) (n := 16) bcast_S1x16_S100000x16_0_1 row n q
  unfold addBiasRow
  show a (ix2 n q) + broadcastInDim S100000x16 ![0, 1] bcast_S1x16_S100000x16_0_1 row (ix2 n q) = _
  rw [hb]

/-- A vector of 32 reshaped to one row is the row a broadcast along axis 1 lays out. -/
theorem cast_row32 (b : FA S32) (h : S32.ShapeCasts S1x32) : shapeCast S1x32 b h = row32 b := by
  funext j
  obtain ⟨u, q, rfl⟩ : ∃ (u : Fin 1) (q : Fin 32), j = ix2 u q := ⟨j 0, j 1, eq_ix2 j⟩
  rw [shapeCast_a_1a_apply b h u q]
  unfold row32
  exact (broadcastInDim_apply _ bcast_S32_S1x32_1 b (ix2 u q) (ix1 q) (fun a => match a with
    | ⟨0, _⟩ => by show q.val = if (32 : Nat) = 1 then 0 else q.val; rw [if_neg (by decide)])).symm

/-- A vector of 16 reshaped to one row is the row a broadcast along axis 1 lays out. -/
theorem cast_row16 (b : FA S16) (h : S16.ShapeCasts S1x16) : shapeCast S1x16 b h = row16 b := by
  funext j
  obtain ⟨u, q, rfl⟩ : ∃ (u : Fin 1) (q : Fin 16), j = ix2 u q := ⟨j 0, j 1, eq_ix2 j⟩
  rw [shapeCast_a_1a_apply b h u q]
  unfold row16
  exact (broadcastInDim_apply _ bcast_S16_S1x16_1 b (ix2 u q) (ix1 q) (fun a => match a with
    | ⟨0, _⟩ => by show q.val = if (16 : Nat) = 1 then 0 else q.val; rw [if_neg (by decide)])).symm

/-! ## Blocks of rows

  Every region walks the table in 50 blocks of 2000 rows. -/

/-- Row `p` of the `t`-th block of 2000 rows is row `2000 t + p` of the table. -/
def rowAt (t : Nat) (ht : t < 50) (p : Fin 2000) : Fin 100000 := ⟨t * 2000 + p.val, by have := p.isLt; omega⟩

end Cert.Gcn

end
-- ==== Proof.Region0.lean ====
/-
  The first region: the first dense transform, block by block.

  The region walks the N × 128 features in 50 blocks of 2000 rows, the 128 × 32 weights staying in place; at
  block t it multiplies the block by the weights (the operands cut to 16-bit floats first, which changes nothing
  at the exact values; the product accumulated from zero) and stores the 2000 × 32 product as block t of the
  result. Entry (p, q) of that product is row 2000 t + p of the features against column q of the weights: entry
  (2000 t + p, q) of the whole product. The blocks tile the result, so after the region the result array is the
  whole product of the arrays the region was entered with.
-/
import proofs.«167079_j13975823581699_1_alg».proof.Proof.Gen.KernelIdeal.Frame
import proofs.«167079_j13975823581699_1_alg».proof.Proof.StageReads

set_option maxRecDepth 16384

noncomputable section

namespace Cert.KernelIdeal.Region0

open Cert.KernelIdeal Cert.KernelIdeal.Gen Cert.Gcn
open Idealize.ShloMosaic Idealize.ShloMosaic.TcCoe Idealize.ShloMosaic.ValueIdx
open Idealize.ShloMosaic.Pipeline (Dat Cfg Window)

-- the buffer contents the region is entered with: every statement below holds for any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry: row p of the block against column q of the weights. -/
theorem pay_apply (x0 : Vec Ideal S2000x128 .f32) (x1 : Vec Ideal S128x32 .f32) (p : Fin 2000) (q : Fin 32) :
    k0_pay1 (F := Ideal) x0 x1 (ix2 p q) = ∑ k : Fin 128, x0 (ix2 p k) * x1 (ix2 k q) := by
  unfold k0_pay1
  refine (congrFun (matmul_zero_eq_dotGeneral (DotDims.plain 2000 128 32) none
    (truncf .bf16 x0 bitsLt_bf16_f32) (truncf .bf16 x1 bitsLt_bf16_f32)) (ix2 p q)).trans ?_
  exact StackMember.dotGeneral_plain_apply (m := 2000) (n := 32) (k := 128) none _ _ p q

/-- The index maps over the grid: the features' and the result's blocks move down with the point, the weights
    stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt50 (t : Fin cfg0.N) : t.val < 50 := by
  have h := t.isLt
  have hN : cfg0.N = 50 := N_0
  omega

/-- Where entry (p, q) of the result's block t sits in the result. -/
theorem emb_out (t : Fin cfg0.N) (p : Fin 2000) (q : Fin 32) :
    ((cfg0.win 2).blk t).view.emb (ix2 p q) = ix2 (rowAt t.val (lt50 t) p) q := by
  obtain ⟨-, -, -, -, e4, e5⟩ := idx_facts t
  funext a; apply Fin.ext
  match a with
  | ⟨0, _⟩ => show win0_2.index t (0 : Fin 2) * 2000 + 1 * p.val = t.val * 2000 + p.val; rw [e4]; omega
  | ⟨1, _⟩ => show win0_2.index t (1 : Fin 2) * 32 + 1 * q.val = q.val; rw [e5]; omega

/-- Block t of the features, at (p, k), is the features at row 2000 t + p. -/
theorem read_x (c : Dev nD) (t : Fin cfg0.N) (p : Fin 2000) (k : Fin 128) :
    iblk0 V c 0 t (ix2 p k) = V c main_arg0 (ix2 (rowAt t.val (lt50 t) p) k) := by
  obtain ⟨e0, e1, -, -, -, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * k.val = k.val; rw [e1]; omega

/-- The weights' block is the weights. -/
theorem read_w (c : Dev nD) (t : Fin cfg0.N) (k : Fin 128) (q : Fin 32) :
    iblk0 V c 1 t (ix2 k q) = V c main_arg2 (ix2 k q) := by
  obtain ⟨-, -, e2, e3, -, -⟩ := idx_facts t
  show V c main_arg2 (((cfg0.win 1).blk t).view.emb (ix2 k q)) = _
  refine congrArg (V c main_arg2) (funext fun a => Fin.ext ?_)
  match a with
  | ⟨0, _⟩ => show win0_1.index t (0 : Fin 2) * 128 + 1 * k.val = k.val; rw [e2]; omega
  | ⟨1, _⟩ => show win0_1.index t (1 : Fin 2) * 32 + 1 * q.val = q.val; rw [e3]; omega

/-- What point t writes back is block t of the whole product. -/
theorem flushed_eq (c : Dev nD) (t : Fin cfg0.N) :
    (dat0 V c).flushed 2 t = ((cfg0.win 2).blk t).view.read (Elt Ideal) (lin1 (V c main_arg0) (V c main_arg2)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x32) hz]
  funext j
  obtain ⟨p, q, rfl⟩ : ∃ (p : Fin 2000) (q : Fin 32), j = ix2 p q := ⟨j 0, j 1, eq_ix2 j⟩
  show k0_pay1 (iblk0 V c 0 t) (iblk0 V c 1 t) (ix2 p q)
    = lin1 (V c main_arg0) (V c main_arg2) (((cfg0.win 2).blk t).view.emb (ix2 p q))
  rw [emb_out t p q, lin1_apply]
  refine (pay_apply (iblk0 V c 0 t) (iblk0 V c 1 t) p q).trans ?_
  refine Finset.sum_congr rfl fun k _ => ?_
  rw [read_x V c t p k, read_w V c t k q]

/-- An index of the result is in point t's block iff each coordinate is in the block's range on its axis. -/
theorem mem_blk (t : Fin cfg0.N) (i : S100000x32.Idx) :
    i ∈ ((cfg0.win 2).blk t).view.set ↔ ∀ a : Fin 2, win0_2.index t a * S2000x32.size a ≤ (i a).val ∧ (i a).val < win0_2.index t a * S2000x32.size a + S2000x32.size a := by
  show i ∈ ((View.whole main_v30).slice (win0_2.rect t)).set ↔ _
  rw [View.set_slice_whole, Rect.mem_set_unit]
  exact Iff.rfl

/-- Every row of the result is in the block of the point numbered by its row divided by 2000. -/
theorem cover (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 50 := N_0
  obtain ⟨t, ht⟩ : ∃ t : Fin cfg0.N, t.val = (i 0).val / 2000 := ⟨⟨(i 0).val / 2000, by omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 2000 ≤ (i 0).val ∧ (i 0).val < win0_2.index t (0 : Fin 2) * 2000 + 2000
    rw [e4, ht]; omega
  | ⟨1, _⟩ =>
    show win0_2.index t (1 : Fin 2) * 32 ≤ (i 1).val ∧ (i 1).val < win0_2.index t (1 : Fin 2) * 32 + 32
    rw [e5]; omega

/-- After the region the result array is the whole product of the features and the weights. -/
theorem final (c : Dev nD) : (dat0 V c).arrAt 2 cfg0.N = lin1 (V c main_arg0) (V c main_arg2) :=
  (dat0 V c).arrAt_eq_of_cover 2 _ (fun t _ => flushed_eq V c t) cover

end Cert.KernelIdeal.Region0

end
-- ==== Proof.Region1.lean ====
/-
  The second region: bias, clipping at zero and the second dense transform, block by block.

  The region walks the aggregated N × 32 table in 50 blocks of 2000 rows, the one-row bias and the 32 × 16
  weights staying in place; at block t it adds the bias row to every row of the block, takes the larger of each
  entry and zero, multiplies the 2000 × 32 result by the weights (operands cut to 16-bit floats, which changes
  nothing at the exact values; accumulated from zero) and stores the 2000 × 16 product as block t of the result.
  Entry (p, q) of that product is the sum over k of max(a(2000 t + p, k) + row(k), 0) · w(k, q): entry
  (2000 t + p, q) of the whole table's bias-and-clip followed by the whole product. The blocks tile the result.
-/
import proofs.«167079_j13975823581699_1_alg».proof.Proof.Gen.KernelIdeal.Frame
import proofs.«167079_j13975823581699_1_alg».proof.Proof.StageReads

set_option maxRecDepth 16384

noncomputable section

namespace Cert.KernelIdeal.Region1

open Cert.KernelIdeal Cert.KernelIdeal.Gen Cert.Gcn
open Idealize.ShloMosaic Idealize.ShloMosaic.TcCoe Idealize.ShloMosaic.ValueIdx
open Idealize.ShloMosaic.Pipeline (Dat Cfg Window)

-- the buffer contents the region is entered with: every statement below holds for any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry: row p of the block, biased and clipped, against column q of the weights. -/
theorem pay_apply (x0 : Vec Ideal S2000x32 .f32) (x1 : Vec Ideal S1x32 .f32) (x2 : Vec Ideal S32x16 .f32) (p : Fin 2000) (q : Fin 16) :
    k1_pay1 (F := Ideal) x0 x1 x2 (ix2 p q)
      = ∑ k : Fin 32, max (x0 (ix2 p k) + x1 (ix2 (0 : Fin 1) k)) (Ideal.ofBits .f32 0x00000000#32) * x2 (ix2 k q) := by
  unfold k1_pay1
  refine (congrFun (matmul_zero_eq_dotGeneral (DotDims.plain 2000 32 16) none _ (truncf .bf16 x2 bitsLt_bf16_f32)) (ix2 p q)).trans ?_
  refine (StackMember.dotGeneral_plain_apply (m := 2000) (n := 16) (k := 32) none _ _ p q).trans ?_
  refine Finset.sum_congr rfl fun k _ => ?_
  show max (shapeCast S2000x32 x0 shapeCasts_S2000x32_S2000x32 (ix2 p k)
      + broadcastTo S2000x32 (shapeCast S1x32 x1 shapeCasts_S1x32_S1x32) broadcasts_S1x32_S2000x32 (ix2 p k))
      (Ideal.ofBits .f32 0x00000000#32) * x2 (ix2 k q) = _
  rw [shapeCast_self, shapeCast_self, broadcastTo_1b_ab_apply]

/-- The index maps over the grid: the table's and the result's blocks move down with the point, the bias row
    and the weights stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem lt50 (t : Fin cfg1.N) : t.val < 50 := by
  have h := t.isLt
  have hN : cfg1.N = 50 := N_1
  omega

/-- Where entry (p, q) of the result's block t sits in the result. -/
theorem emb_out (t : Fin cfg1.N) (p : Fin 2000) (q : Fin 16) :
    ((cfg1.win 3).blk t).view.emb (ix2 p q) = ix2 (rowAt t.val (lt50 t) p) q := by
  obtain ⟨-, -, -, -, -, -, e6, e7⟩ := idx_facts t
  funext a; apply Fin.ext
  match a with
  | ⟨0, _⟩ => show win1_3.index t (0 : Fin 2) * 2000 + 1 * p.val = t.val * 2000 + p.val; rw [e6]; omega
  | ⟨1, _⟩ => show win1_3.index t (1 : Fin 2) * 16 + 1 * q.val = q.val; rw [e7]; omega

/-- Block t of the table, at (p, k), is the table at row 2000 t + p. -/
theorem read_table (c : Dev nD) (t : Fin cfg1.N) (p : Fin 2000) (k : Fin 32) :
    iblk1 V c 0 t (ix2 p k) = V c main_v43 (ix2 (rowAt t.val (lt50 t) p) k) := by
  obtain ⟨e0, e1, -, -, -, -, -, -⟩ := idx_facts t
  show V c main_v43 (((cfg1.win 0).blk t).view.emb (ix2 p k)) = _
  refine congrArg (V c main_v43) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 32 + 1 * k.val = k.val; rw [e1]; omega

/-- The bias row's block is the bias row. -/
theorem read_row (c : Dev nD) (t : Fin cfg1.N) (u : Fin 1) (k : Fin 32) :
    iblk1 V c 1 t (ix2 u k) = V c main_v44 (ix2 u k) := by
  obtain ⟨-, -, e2, e3, -, -, -, -⟩ := idx_facts t
  show V c main_v44 (((cfg1.win 1).blk t).view.emb (ix2 u k)) = _
  refine congrArg (V c main_v44) (funext fun a => Fin.ext ?_)
  match a with
  | ⟨0, _⟩ => show win1_1.index t (0 : Fin 2) * 1 + 1 * u.val = u.val; rw [e2]; omega
  | ⟨1, _⟩ => show win1_1.index t (1 : Fin 2) * 32 + 1 * k.val = k.val; rw [e3]; omega

/-- The weights' block is the weights. -/
theorem read_w (c : Dev nD) (t : Fin cfg1.N) (k : Fin 32) (q : Fin 16) :
    iblk1 V c 2 t (ix2 k q) = V c main_arg4 (ix2 k q) := by
  obtain ⟨-, -, -, -, e4, e5, -, -⟩ := idx_facts t
  show V c main_arg4 (((cfg1.win 2).blk t).view.emb (ix2 k q)) = _
  refine congrArg (V c main_arg4) (funext fun a => Fin.ext ?_)
  match a with
  | ⟨0, _⟩ => show win1_2.index t (0 : Fin 2) * 32 + 1 * k.val = k.val; rw [e4]; omega
  | ⟨1, _⟩ => show win1_2.index t (1 : Fin 2) * 16 + 1 * q.val = q.val; rw [e5]; omega

/-- What point t writes back is block t of the biased, clipped table times the weights. -/
theorem flushed_eq (c : Dev nD) (t : Fin cfg1.N) :
    (dat1 V c).flushed 3 t = ((cfg1.win 3).blk t).view.read (Elt Ideal)
      (lin2 (biasReluRow (V c main_v43) (V c main_v44)) (V c main_arg4)) := by
  show (cfg1.win 3).cut (grid1.coords t) ((dat1 V c).after 3 t) = _
  rw [after1_3]
  unfold out1_3
  rw [View.canon_unit_zero hz]
  simp only [View.ld_unit_zero (S := S2000x32) hz, View.ld_unit_zero (S := S1x32) hz, View.ld_unit_zero (S := S32x16) hz]
  funext j
  obtain ⟨p, q, rfl⟩ : ∃ (p : Fin 2000) (q : Fin 16), j = ix2 p q := ⟨j 0, j 1, eq_ix2 j⟩
  show k1_pay1 (iblk1 V c 0 t) (iblk1 V c 1 t) (iblk1 V c 2 t) (ix2 p q)
    = lin2 (biasReluRow (V c main_v43) (V c main_v44)) (V c main_arg4) (((cfg1.win 3).blk t).view.emb (ix2 p q))
  rw [emb_out t p q, lin2_apply]
  refine (pay_apply (iblk1 V c 0 t) (iblk1 V c 1 t) (iblk1 V c 2 t) p q).trans ?_
  refine Finset.sum_congr rfl fun k _ => ?_
  rw [biasReluRow_apply, read_table V c t p k, read_row V c t 0 k, read_w V c t k q]

/-- An index of the result is in point t's block iff each coordinate is in the block's range on its axis. -/
theorem mem_blk (t : Fin cfg1.N) (i : S100000x16.Idx) :
    i ∈ ((cfg1.win 3).blk t).view.set ↔ ∀ a : Fin 2, win1_3.index t a * S2000x16.size a ≤ (i a).val ∧ (i a).val < win1_3.index t a * S2000x16.size a + S2000x16.size a := by
  show i ∈ ((View.whole main_v45).slice (win1_3.rect t)).set ↔ _
  rw [View.set_slice_whole, Rect.mem_set_unit]
  exact Iff.rfl

/-- Every row of the result is in the block of the point numbered by its row divided by 2000. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 50 := N_1
  obtain ⟨t, ht⟩ : ∃ t : Fin cfg1.N, t.val = (i 0).val / 2000 := ⟨⟨(i 0).val / 2000, by omega⟩, rfl⟩
  obtain ⟨-, -, -, -, -, -, e6, e7⟩ := idx_facts t
  refine ⟨t, flush1_3 t, ?_⟩
  rw [mem_blk]
  intro a
  match a with
  | ⟨0, _⟩ =>
    show win1_3.index t (0 : Fin 2) * 2000 ≤ (i 0).val ∧ (i 0).val < win1_3.index t (0 : Fin 2) * 2000 + 2000
    rw [e6, ht]; omega
  | ⟨1, _⟩ =>
    show win1_3.index t (1 : Fin 2) * 16 ≤ (i 1).val ∧ (i 1).val < win1_3.index t (1 : Fin 2) * 16 + 16
    rw [e7]; omega

/-- After the region the result array is the table, biased and clipped, times the weights. -/
theorem final (c : Dev nD) :
    (dat1 V c).arrAt 3 cfg1.N = lin2 (biasReluRow (V c main_v43) (V c main_v44)) (V c main_arg4) :=
  (dat1 V c).arrAt_eq_of_cover 3 _ (fun t _ => flushed_eq V c t) cover

end Cert.KernelIdeal.Region1

end
-- ==== Proof.Region2.lean ====
/-
  The last region: the bias row added to every row of the aggregated table.

  The region walks the N × 16 table in 50 blocks of 2000 rows; at block t it loads the block and the one-row
  bias, adds the row to every row of the block and stores the sum as block t of the result. Entry (p, q) of
  what it stores is a(2000 t + p, q) + row(q). The blocks tile the result, so after the region the result array
  is the table plus the bias row, whatever the table and the row were when the region was entered.
-/
import proofs.«167079_j13975823581699_1_alg».proof.Proof.Gen.KernelIdeal.Frame
import proofs.«167079_j13975823581699_1_alg».proof.Proof.StageReads

set_option maxRecDepth 16384

noncomputable section

namespace Cert.KernelIdeal.Region2

open Cert.KernelIdeal Cert.KernelIdeal.Gen Cert.Gcn
open Idealize.ShloMosaic Idealize.ShloMosaic.TcCoe Idealize.ShloMosaic.ValueIdx
open Idealize.ShloMosaic.Pipeline (Dat Cfg Window)

-- the buffer contents the region is entered with: every statement below holds for any
variable (V : (c : Dev nD) → (b : Ref sig .tc) → Buf (Elt Ideal) ((c : Thread nD τ).loc b))

theorem hz : (![0, 0] : Fin 2 → Nat) = fun _ => 0 := funext fun a => by fin_cases a <;> rfl

/-- The body's arithmetic at an entry: the block's entry plus the bias row's entry of that column. -/
theorem pay_apply (x0 : Vec Ideal S2000x16 .f32) (x1 : Vec Ideal S1x16 .f32) (p : Fin 2000) (q : Fin 16) :
    k2_pay1 (F := Ideal) x0 x1 (ix2 p q) = x0 (ix2 p q) + x1 (ix2 (0 : Fin 1) q) := by
  unfold k2_pay1
  show shapeCast S2000x16 x0 shapeCasts_S2000x16_S2000x16 (ix2 p q)
      + broadcastTo S2000x16 (shapeCast S1x16 x1 shapeCasts_S1x16_S1x16) broadcasts_S1x16_S2000x16 (ix2 p q) = _
  rw [shapeCast_self, shapeCast_self, broadcastTo_1b_ab_apply]

/-- The index maps over the grid: the table's and the result's blocks move down with the point, the bias row
    stays. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt50 (t : Fin cfg2.N) : t.val < 50 := by
  have h := t.isLt
  have hN : cfg2.N = 50 := N_2
  omega

/-- Where entry (p, q) of the result's block t sits in the result. -/
theorem emb_out (t : Fin cfg2.N) (p : Fin 2000) (q : Fin 16) :
    ((cfg2.win 2).blk t).view.emb (ix2 p q) = ix2 (rowAt t.val (lt50 t) p) q := by
  obtain ⟨-, -, -, -, e4, e5⟩ := idx_facts t
  funext a; apply Fin.ext
  match a with
  | ⟨0, _⟩ => show win2_2.index t (0 : Fin 2) * 2000 + 1 * p.val = t.val * 2000 + p.val; rw [e4]; omega
  | ⟨1, _⟩ => show win2_2.index t (1 : Fin 2) * 16 + 1 * q.val = q.val; rw [e5]; omega

/-- Block t of the table, at (p, q), is the table at row 2000 t + p. -/
theorem read_table (c : Dev nD) (t : Fin cfg2.N) (p : Fin 2000) (q : Fin 16) :
    iblk2 V c 0 t (ix2 p q) = V c main_v58 (ix2 (rowAt t.val (lt50 t) p) q) := by
  obtain ⟨e0, e1, -, -, -, -⟩ := idx_facts t
  show V c main_v58 (((cfg2.win 0).blk t).view.emb (ix2 p q)) = _
  refine congrArg (V c main_v58) (funext fun a => Fin.ext ?_)
  match a with
  | ⟨0, _⟩ => show win2_0.index t (0 : Fin 2) * 2000 + 1 * p.val = t.val * 2000 + p.val; rw [e0]; omega
  | ⟨1, _⟩ => show win2_0.index t (1 : Fin 2) * 16 + 1 * q.val = q.val; rw [e1]; omega

/-- The bias row's block is the bias row. -/
theorem read_row (c : Dev nD) (t : Fin cfg2.N) (u : Fin 1) (q : Fin 16) :
    iblk2 V c 1 t (ix2 u q) = V c main_v59 (ix2 u q) := by
  obtain ⟨-, -, e2, e3, -, -⟩ := idx_facts t
  show V c main_v59 (((cfg2.win 1).blk t).view.emb (ix2 u q)) = _
  refine congrArg (V c main_v59) (funext fun a => Fin.ext ?_)
  match a with
  | ⟨0, _⟩ => show win2_1.index t (0 : Fin 2) * 1 + 1 * u.val = u.val; rw [e2]; omega
  | ⟨1, _⟩ => show win2_1.index t (1 : Fin 2) * 16 + 1 * q.val = q.val; rw [e3]; omega

/-- What point t writes back is block t of the table plus the bias row. -/
theorem flushed_eq (c : Dev nD) (t : Fin cfg2.N) :
    (dat2 V c).flushed 2 t = ((cfg2.win 2).blk t).view.read (Elt Ideal) (addBiasRow (V c main_v58) (V c main_v59)) := by
  show (cfg2.win 2).cut (grid2.coords t) ((dat2 V c).after 2 t) = _
  rw [after2_2]
  unfold out2_2
  rw [View.canon_unit_zero hz]
  simp only [View.ld_unit_zero (S := S2000x16) hz, View.ld_unit_zero (S := S1x16) hz]
  funext j
  obtain ⟨p, q, rfl⟩ : ∃ (p : Fin 2000) (q : Fin 16), j = ix2 p q := ⟨j 0, j 1, eq_ix2 j⟩
  show k2_pay1 (iblk2 V c 0 t) (iblk2 V c 1 t) (ix2 p q)
    = addBiasRow (V c main_v58) (V c main_v59) (((cfg2.win 2).blk t).view.emb (ix2 p q))
  rw [emb_out t p q, addBiasRow_apply]
  refine (pay_apply (iblk2 V c 0 t) (iblk2 V c 1 t) p q).trans ?_
  rw [read_table V c t p q, read_row V c t 0 q]

/-- An index of the result is in point t's block iff each coordinate is in the block's range on its axis. -/
theorem mem_blk (t : Fin cfg2.N) (i : S100000x16.Idx) :
    i ∈ ((cfg2.win 2).blk t).view.set ↔ ∀ a : Fin 2, win2_2.index t a * S2000x16.size a ≤ (i a).val ∧ (i a).val < win2_2.index t a * S2000x16.size a + S2000x16.size a := by
  show i ∈ ((View.whole main_v60).slice (win2_2.rect t)).set ↔ _
  rw [View.set_slice_whole, Rect.mem_set_unit]
  exact Iff.rfl

/-- Every row of the result is in the block of the point numbered by its row divided by 2000. -/
theorem cover (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 50 := N_2
  obtain ⟨t, ht⟩ : ∃ t : Fin cfg2.N, t.val = (i 0).val / 2000 := ⟨⟨(i 0).val / 2000, by omega⟩, rfl⟩
  obtain ⟨-, -, -, -, e4, e5⟩ := idx_facts t
  refine ⟨t, flush2_2 t, ?_⟩
  rw [mem_blk]
  intro a
  match a with
  | ⟨0, _⟩ =>
    show win2_2.index t (0 : Fin 2) * 2000 ≤ (i 0).val ∧ (i 0).val < win2_2.index t (0 : Fin 2) * 2000 + 2000
    rw [e4, ht]; omega
  | ⟨1, _⟩ =>
    show win2_2.index t (1 : Fin 2) * 16 ≤ (i 1).val ∧ (i 1).val < win2_2.index t (1 : Fin 2) * 16 + 16
    rw [e5]; omega

/-- After the region the result array is the table plus the bias row. -/
theorem final (c : Dev nD) : (dat2 V c).arrAt 2 cfg2.N = addBiasRow (V c main_v58) (V c main_v59) :=
  (dat2 V c).arrAt_eq_of_cover 2 _ (fun t _ => flushed_eq V c t) cover

end Cert.KernelIdeal.Region2

end
-- ==== Proof.KernelValue.lean ====
/-
  The kernel program's result is the network of its arguments.

  The generated frame module names the buffer contents at every boundary between the program's segments:
  `W3` before the first region, `W4` after it, `W5` before the second, `W6` after it, `W7` before the third, `W8`
  at the end. Reading the result buffer at `W8` and walking back:
    * the third region leaves the aggregated table plus the bias row (Region2), of the contents `W7`;
    * the stretch before it computes that table — one round of message passing on the second region's result —
      and lays the bias out as a row;
    * the second region leaves the biased, clipped table times the weights (Region1), of the contents `W5`;
    * the stretch before it computes that table — one round of message passing on the first region's result —
      and lays the bias out as a row;
    * the first region leaves the features times the weights (Region0), of the contents `W3`;
    * the three stretches before it build the edge list with the self-loops, the degrees and the edge weights.
  The edge list, the edge weights and the arguments are written before the first region and by nothing after it,
  so they are read at every later boundary as at `W3`. Put together, the result is `Cert.Gcn.network` of the six
  argument arrays.
-/
import proofs.«167079_j13975823581699_1_alg».proof.Proof.Region0
import proofs.«167079_j13975823581699_1_alg».proof.Proof.Region1
import proofs.«167079_j13975823581699_1_alg».proof.Proof.Region2

set_option maxRecDepth 16384

noncomputable section

namespace Cert.KernelIdeal.Walk

open Cert.KernelIdeal Cert.KernelIdeal.Gen Cert.Gcn
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Before the first region: the edge list, the edge weights, the arguments -/

/-- The contents before the first region, as the fold of the three stretches from the launch memory. -/
theorem W3_eq (c : Dev nD) (b : Ref sig .tc) :
    W3 m ρ c (Proc.devRef .tc b)
      = StableHlo.after hostOps0_2 (StableHlo.after hostOps0_1 (StableHlo.after hostOps0 (W0 m ρ c))) (Proc.devRef .tc b) := rfl

set_option maxHeartbeats 4000000 in
theorem W3_src (c : Dev nD) : W3 m ρ c (Proc.devRef .tc main_v5) = srcOf (m ((c : Thread nD τ).loc main_arg1)) := by
  rw [W3_eq]
  after_results_simp <;> rfl

set_option maxHeartbeats 4000000 in
theorem W3_dst (c : Dev nD) : W3 m ρ c (Proc.devRef .tc main_v6) = dstOf (m ((c : Thread nD τ).loc main_arg1)) := by
  rw [W3_eq]
  after_results_simp <;> rfl

/-! The edge weights, one stretch at a time. Each stretch is read from ARBITRARY contents `W`, so that the
    terms compared stay the size of the stretch; the three readings are then chained. -/

/-- The first stretch leaves the degrees compared with zero, -/
theorem W1_positive (c : Dev nD) :
    W1 m ρ c (Proc.devRef .tc main_v12)
      = cmpf .ogt (degOf (m ((c : Thread nD τ).loc main_arg1))) (broadcastInDim S100000 ![] bcast_S_S100000 (constant (F := Ideal) S_ .f32 0x00000000#32)) := by
  show StableHlo.after hostOps0 (W0 m ρ c) (Proc.devRef .tc main_v12) = _
  after_results_simp <;> rfl

/-- their inverse square roots, -/
theorem W1_rsqrt (c : Dev nD) :
    W1 m ρ c (Proc.devRef .tc main_v13) = Host.rsqrt (F := Ideal) (degOf (m ((c : Thread nD τ).loc main_arg1))) := by
  show StableHlo.after hostOps0 (W0 m ρ c) (Proc.devRef .tc main_v13) = _
  after_results_simp <;> rfl

/-- and a zero. -/
theorem W1_zero (c : Dev nD) :
    W1 m ρ c (Proc.devRef .tc main_cst_2) = constant (F := Ideal) S_ .f32 0x00000000#32 := by
  show StableHlo.after hostOps0 (W0 m ρ c) (Proc.devRef .tc main_cst_2) = _
  after_results_simp <;> rfl

theorem W1_src (c : Dev nD) : W1 m ρ c (Proc.devRef .tc main_v5) = srcOf (m ((c : Thread nD τ).loc main_arg1)) := by
  show StableHlo.after hostOps0 (W0 m ρ c) (Proc.devRef .tc main_v5) = _
  after_results_simp <;> rfl

theorem W1_dst (c : Dev nD) : W1 m ρ c (Proc.devRef .tc main_v6) = dstOf (m ((c : Thread nD τ).loc main_arg1)) := by
  show StableHlo.after hostOps0 (W0 m ρ c) (Proc.devRef .tc main_v6) = _
  after_results_simp <;> rfl

/-- The second stretch selects, node by node, the inverse square root where the degree is positive and the zero
    elsewhere, from whatever contents it starts with, -/
theorem select_step (W : Valuation τ sig (Elt Ideal)) :
    StableHlo.after (hostOps0_1 (F := Ideal)) W (Proc.devRef .tc main_v14)
      = select (W (Proc.devRef .tc main_v12)) (W (Proc.devRef .tc main_v13))
          (broadcastInDim S100000 ![] bcast_S_S100000 (id (W (Proc.devRef .tc main_cst_2)))) := by
  after_results_simp <;> rfl

/-- and writes neither end of the edge list. -/
theorem select_step_src (W : Valuation τ sig (Elt Ideal)) :
    StableHlo.after (hostOps0_1 (F := Ideal)) W (Proc.devRef .tc main_v5) = W (Proc.devRef .tc main_v5) := by
  after_results_simp <;> rfl
theorem select_step_dst (W : Valuation τ sig (Elt Ideal)) :
    StableHlo.after (hostOps0_1 (F := Ideal)) W (Proc.devRef .tc main_v6) = W (Proc.devRef .tc main_v6) := by
  after_results_simp <;> rfl

/-- The third stretch gathers the node factor at both ends of every edge and multiplies, from whatever contents
    it starts with. -/
theorem weight_step (W : Valuation τ sig (Elt Ideal)) :
    StableHlo.after (hostOps0_2 (F := Ideal)) W (Proc.devRef .tc main_v29)
      = (mulf (F := Ideal)
          (Host.gather gather_S100000_S1700000x1_S1700000_n_0_n_n_0_1_1 (W (Proc.devRef .tc main_v14) : FVec Ideal S100000 .f32) (rowsOf (W (Proc.devRef .tc main_v5))))
          (Host.gather gather_S100000_S1700000x1_S1700000_n_0_n_n_0_1_1 (W (Proc.devRef .tc main_v14) : FVec Ideal S100000 .f32) (rowsOf (W (Proc.devRef .tc main_v6))))
          : FVec Ideal S1700000 .f32) := by
  after_results_simp <;> rfl

theorem W2_dis (c : Dev nD) : W2 m ρ c (Proc.devRef .tc main_v14) = disOf (m ((c : Thread nD τ).loc main_arg1)) := by
  refine (select_step (W1 m ρ c)).trans ?_
  rw [W1_positive, W1_rsqrt, W1_zero]
  rfl

theorem W2_src (c : Dev nD) : W2 m ρ c (Proc.devRef .tc main_v5) = srcOf (m ((c : Thread nD τ).loc main_arg1)) :=
  (select_step_src (W1 m ρ c)).trans (W1_src m ρ c)

theorem W2_dst (c : Dev nD) : W2 m ρ c (Proc.devRef .tc main_v6) = dstOf (m ((c : Thread nD τ).loc main_arg1)) :=
  (select_step_dst (W1 m ρ c)).trans (W1_dst m ρ c)

theorem W3_norm (c : Dev nD) : W3 m ρ c (Proc.devRef .tc main_v29) = normOf (m ((c : Thread nD τ).loc main_arg1)) := by
  refine (weight_step (W2 m ρ c)).trans ?_
  rw [W2_dis, W2_src, W2_dst]
  rfl

set_option maxHeartbeats 4000000 in
theorem W3_arg0 (c : Dev nD) : W3 m ρ c (Proc.devRef .tc main_arg0) = m ((c : Thread nD τ).loc main_arg0) := by
  rw [W3_eq]
  after_results_simp <;> rfl
set_option maxHeartbeats 4000000 in
theorem W3_arg2 (c : Dev nD) : W3 m ρ c (Proc.devRef .tc main_arg2) = m ((c : Thread nD τ).loc main_arg2) := by
  rw [W3_eq]
  after_results_simp <;> rfl
set_option maxHeartbeats 4000000 in
theorem W3_arg3 (c : Dev nD) : W3 m ρ c (Proc.devRef .tc main_arg3) = m ((c : Thread nD τ).loc main_arg3) := by
  rw [W3_eq]
  after_results_simp <;> rfl
set_option maxHeartbeats 4000000 in
theorem W3_arg4 (c : Dev nD) : W3 m ρ c (Proc.devRef .tc main_arg4) = m ((c : Thread nD τ).loc main_arg4) := by
  rw [W3_eq]
  after_results_simp <;> rfl
set_option maxHeartbeats 4000000 in
theorem W3_arg5 (c : Dev nD) : W3 m ρ c (Proc.devRef .tc main_arg5) = m ((c : Thread nD τ).loc main_arg5) := by
  rw [W3_eq]
  after_results_simp <;> rfl

/-! ## The first region and the stretch after it -/

/-- The first region writes only its result: every other buffer is as before it. -/
theorem W4_keep (c : Dev nD) (b : Ref sig .tc) (hb : ∀ w, Pipeline.arrRef spec0 w ≠ b) :
    W4 m ρ c (Proc.devRef .tc b) = W3 m ρ c (Proc.devRef .tc b) := W4_of_ne m ρ c b hb

/-- After the first region its result is the features times the weights. -/
theorem W4_lin1 (c : Dev nD) :
    W4 m ρ c (Proc.devRef .tc main_v30) = lin1 (m ((c : Thread nD τ).loc main_arg0)) (m ((c : Thread nD τ).loc main_arg2)) := by
  refine ((W4_arr m ρ c 2).trans (Region0.final (V3 m ρ) c)).trans ?_
  show lin1 (W3 m ρ c (Proc.devRef .tc main_arg0)) (W3 m ρ c (Proc.devRef .tc main_arg2)) = _
  rw [W3_arg0, W3_arg2]

/-- The stretch after the first region writes none of these buffers. -/
theorem W5_keep (c : Dev nD) (b : Ref sig .tc)
    (hb : ∀ op ∈ (hostOps1 : List (HloOp τ sig (Elt Ideal))), Proc.devRef .tc b ∉ op.writes) :
    W5 m ρ c (Proc.devRef .tc b) = W4 m ρ c (Proc.devRef .tc b) :=
  StableHlo.after_of_forall_not_mem _ _ hb

/-- No operation of the stretch after the first region writes the reference `b`, decided operation by operation. -/
macro "hostOps1_keeps" : tactic => `(tactic|
  (refine List.forall_iff_forall_mem.mp ?_
   simp only [hostOps1, List.Forall, StableHlo.nullary_writes, StableHlo.unary_writes, StableHlo.binary_writes, StableHlo.ternary_writes,
     StableHlo.quaternary_writes, StableHlo.reshape_writes, StableHlo.binaryIndexed_writes, Finset.mem_singleton]
   repeat' apply And.intro
   all_goals exact StableHlo.devRef_ne_of_ne (by decide)))

/-- The aggregated table the second region is entered with: one round of message passing on the first
    region's result. -/
theorem W5_table (c : Dev nD) :
    W5 m ρ c (Proc.devRef .tc main_v43)
      = aggregate32 (W4 m ρ c (Proc.devRef .tc main_v5)) (W4 m ρ c (Proc.devRef .tc main_v6)) (W4 m ρ c (Proc.devRef .tc main_v29))
          (W4 m ρ c (Proc.devRef .tc main_v30)) := by
  show StableHlo.after hostOps1 (W4 m ρ c) (Proc.devRef .tc main_v43) = _
  after_results_simp <;> rfl

/-- The bias row the second region is entered with. -/
theorem W5_row (c : Dev nD) :
    W5 m ρ c (Proc.devRef .tc main_v44) = row32 (W4 m ρ c (Proc.devRef .tc main_arg3)) := by
  show StableHlo.after hostOps1 (W4 m ρ c) (Proc.devRef .tc main_v44) = _
  after_results_simp
  exact cast_row32 _ _

/-! ## The second region and the stretch after it -/

theorem W6_keep (c : Dev nD) (b : Ref sig .tc) (hb : ∀ w, Pipeline.arrRef spec1 w ≠ b) :
    W6 m ρ c (Proc.devRef .tc b) = W5 m ρ c (Proc.devRef .tc b) := W6_of_ne m ρ c b hb

/-- After the second region its result is the biased, clipped table times the weights. -/
theorem W6_lin2 (c : Dev nD) :
    W6 m ρ c (Proc.devRef .tc main_v45)
      = lin2 (biasReluRow (W5 m ρ c (Proc.devRef .tc main_v43)) (W5 m ρ c (Proc.devRef .tc main_v44))) (W5 m ρ c (Proc.devRef .tc main_arg4)) :=
  (W6_arr m ρ c 3).trans (Region1.final (V5 m ρ) c)

/-- The aggregated table the third region is entered with: one round of message passing on the second
    region's result. -/
theorem W7_table (c : Dev nD) :
    W7 m ρ c (Proc.devRef .tc main_v58)
      = aggregate16 (W6 m ρ c (Proc.devRef .tc main_v5)) (W6 m ρ c (Proc.devRef .tc main_v6)) (W6 m ρ c (Proc.devRef .tc main_v29))
          (W6 m ρ c (Proc.devRef .tc main_v45)) := by
  show StableHlo.after hostOps2 (W6 m ρ c) (Proc.devRef .tc main_v58) = _
  after_results_simp <;> rfl

/-- The bias row the third region is entered with. -/
theorem W7_row (c : Dev nD) :
    W7 m ρ c (Proc.devRef .tc main_v59) = row16 (W6 m ρ c (Proc.devRef .tc main_arg5)) := by
  show StableHlo.after hostOps2 (W6 m ρ c) (Proc.devRef .tc main_v59) = _
  after_results_simp
  exact cast_row16 _ _

/-! ## The third region, and the whole -/

/-- After the third region the result is the aggregated table plus the bias row. -/
theorem W8_out (c : Dev nD) :
    W8 m ρ c (Proc.devRef .tc main_v60)
      = addBiasRow (W7 m ρ c (Proc.devRef .tc main_v58)) (W7 m ρ c (Proc.devRef .tc main_v59)) :=
  (W8_arr m ρ c 2).trans (Region2.final (V7 m ρ) c)

/-- The edge list, the edge weights and the arguments, read after the first and after the second region, are
    what the stretches before the first region made of the launch memory. -/
theorem W4_src (c : Dev nD) : W4 m ρ c (Proc.devRef .tc main_v5) = srcOf (m ((c : Thread nD τ).loc main_arg1)) :=
  (W4_keep m ρ c main_v5 (by decide)).trans (W3_src m ρ c)
theorem W4_dst (c : Dev nD) : W4 m ρ c (Proc.devRef .tc main_v6) = dstOf (m ((c : Thread nD τ).loc main_arg1)) :=
  (W4_keep m ρ c main_v6 (by decide)).trans (W3_dst m ρ c)
theorem W4_norm (c : Dev nD) : W4 m ρ c (Proc.devRef .tc main_v29) = normOf (m ((c : Thread nD τ).loc main_arg1)) :=
  (W4_keep m ρ c main_v29 (by decide)).trans (W3_norm m ρ c)
theorem W4_arg3 (c : Dev nD) : W4 m ρ c (Proc.devRef .tc main_arg3) = m ((c : Thread nD τ).loc main_arg3) :=
  (W4_keep m ρ c main_arg3 (by decide)).trans (W3_arg3 m ρ c)
theorem W4_arg4 (c : Dev nD) : W4 m ρ c (Proc.devRef .tc main_arg4) = m ((c : Thread nD τ).loc main_arg4) :=
  (W4_keep m ρ c main_arg4 (by decide)).trans (W3_arg4 m ρ c)
theorem W4_arg5 (c : Dev nD) : W4 m ρ c (Proc.devRef .tc main_arg5) = m ((c : Thread nD τ).loc main_arg5) :=
  (W4_keep m ρ c main_arg5 (by decide)).trans (W3_arg5 m ρ c)

theorem W5_arg4 (c : Dev nD) : W5 m ρ c (Proc.devRef .tc main_arg4) = m ((c : Thread nD τ).loc main_arg4) :=
  (W5_keep m ρ c main_arg4 (by hostOps1_keeps)).trans (W4_arg4 m ρ c)
theorem W6_src (c : Dev nD) : W6 m ρ c (Proc.devRef .tc main_v5) = srcOf (m ((c : Thread nD τ).loc main_arg1)) :=
  (W6_keep m ρ c main_v5 (by decide)).trans ((W5_keep m ρ c main_v5 (by hostOps1_keeps)).trans (W4_src m ρ c))
theorem W6_dst (c : Dev nD) : W6 m ρ c (Proc.devRef .tc main_v6) = dstOf (m ((c : Thread nD τ).loc main_arg1)) :=
  (W6_keep m ρ c main_v6 (by decide)).trans ((W5_keep m ρ c main_v6 (by hostOps1_keeps)).trans (W4_dst m ρ c))
theorem W6_norm (c : Dev nD) : W6 m ρ c (Proc.devRef .tc main_v29) = normOf (m ((c : Thread nD τ).loc main_arg1)) :=
  (W6_keep m ρ c main_v29 (by decide)).trans ((W5_keep m ρ c main_v29 (by hostOps1_keeps)).trans (W4_norm m ρ c))
theorem W6_arg5 (c : Dev nD) : W6 m ρ c (Proc.devRef .tc main_arg5) = m ((c : Thread nD τ).loc main_arg5) :=
  (W6_keep m ρ c main_arg5 (by decide)).trans ((W5_keep m ρ c main_arg5 (by hostOps1_keeps)).trans (W4_arg5 m ρ c))

/-- The kernel program's result buffer ends holding the network of the six argument arrays. -/
theorem result_eq (c : Dev nD) :
    W8 m ρ c (Proc.devRef .tc main_v60)
      = network (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [W8_out, W7_table, W7_row, W6_lin2, W6_src, W6_dst, W6_norm, W6_arg5, W5_table, W5_row, W5_arg4,
    W4_lin1, W4_src, W4_dst, W4_norm, W4_arg3]
  rfl

end Cert.KernelIdeal.Walk

end
-- ==== Proof.ReferenceValue.lean ====
/-
  The reference program's result is the network of its arguments.

  The reference's run ends with its result buffer at the composition of its 119 host operations applied to the
  argument arrays. Written out, that composition is: the edge list with the self-loops appended, the degrees,
  the edge weights, the first dense transform, one round of message passing, the bias and the clipping, the
  second dense transform, the edge weights once more (from the same edge list, by the same operations: the
  same term), a second round of message passing, and the last bias. Stage by stage it is `Cert.Gcn.network`.
-/
import proofs.«167079_j13975823581699_1_alg».proof.Proof.Stages
import proofs.«167079_j13975823581699_1_alg».proof.Proof.RunPatched

noncomputable section

namespace Cert.Gcn

open Idealize.ShloMosaic Idealize.ShloMosaic.TcCoe Cert.ReferenceIdeal Cert.ReferenceIdeal.Facts₀

set_option maxRecDepth 8192 in
/-- The reference's result is the network of its arguments: its printed term is this composition, operation
    by operation (the second layer recomputes the edge weights from the same edge list). -/
theorem reference_eq (m : (ℓ : Loc nD τ sig) → Buf (Elt Ideal) ℓ) (c : Dev nD) :
    Cert.ReferenceIdeal.ValueP.res_main_v90 (F := Ideal) m c
      = network (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  unfold Cert.ReferenceIdeal.ValueP.res_main_v90 network addBiasRow row16 aggregate16 lin2 biasReluRow row32 aggregate32 lin1 normOf disOf degOf
    rowsOf colOf srcOf dstOf
  rfl

end Cert.Gcn

end
-- ==== Proof.lean ====
/-
  A two-layer graph convolution on 100000 nodes and 1600000 edges: the kernel program against its reference,
  at the exact values (floats are extended reals, a change of float format is the identity).

  Both programs compute, from the features x, the edge list, the weights W₁, W₂ and the biases b₁, b₂,

      A( relu( A(x · W₁) + b₁ ) · W₂ ) + b₂,

  where A is one round of message passing: every node gets an edge to itself, every edge weighs
  deg(source)^(-1/2) · deg(target)^(-1/2), and row s of a table, times the weight of the edge s → d, is added
  into row d. The reference does all of it with host operations (`Cert.Gcn.reference_eq`: its result term is
  the composition `Cert.Gcn.network`, stage by stage). The kernel program keeps the message passing on the host
  — the same gathers and scatter-additions, which are therefore never opened — and runs the three dense pieces
  as pipelined regions over 50 blocks of 2000 rows: x · W₁; relu(· + b₁) · W₂; · + b₂. Each region's blocks are
  the blocks of the whole-array stage (a matrix product into a zero accumulator is the host's product, entry by
  entry the same finite sum; the bias row is the same row however it is laid out), and they tile the result, so
  each region leaves the whole-array stage of what it was entered with (Region0, Region1, Region2). Walking the
  buffer contents back from the end of the program to its launch (KernelValue) gives the same composition of
  the argument arrays. No law of arithmetic beyond 0 + s = s is used, so the inputs' finiteness is never opened.

  The frames: the two kernel programs' are the generated ones; the reference's is its run with the result
  dropped. The idealization rewrote nothing, so it preserves the program trivially.
-/
import proofs.«167079_j13975823581699_1_alg».proof.Defs
import proofs.«167079_j13975823581699_1_alg».proof.Proof.Gen.Kernel
import proofs.«167079_j13975823581699_1_alg».proof.Proof.Gen.Kernel.Skeleton
import proofs.«167079_j13975823581699_1_alg».proof.Proof.Gen.Kernel.Launch
import proofs.«167079_j13975823581699_1_alg».proof.Proof.Gen.Kernel.Points
import proofs.«167079_j13975823581699_1_alg».proof.Proof.Gen.Kernel.Frame
import proofs.«167079_j13975823581699_1_alg».proof.Proof.Gen.KernelIdeal
import proofs.«167079_j13975823581699_1_alg».proof.Proof.Gen.KernelIdeal.Skeleton
import proofs.«167079_j13975823581699_1_alg».proof.Proof.Gen.KernelIdeal.Launch
import proofs.«167079_j13975823581699_1_alg».proof.Proof.Gen.KernelIdeal.Points
import proofs.«167079_j13975823581699_1_alg».proof.Proof.Gen.KernelIdeal.Frame
import proofs.«167079_j13975823581699_1_alg».proof.Proof.Gen.ReferenceIdeal
import proofs.«167079_j13975823581699_1_alg».proof.Proof.Gen.Pre_finite_inputs
import proofs.«167079_j13975823581699_1_alg».proof.Proof.KernelRun
import proofs.«167079_j13975823581699_1_alg».proof.Proof.KernelValue
import proofs.«167079_j13975823581699_1_alg».proof.Proof.ReferenceValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories that agree on the six arguments both programs end with the network of those arguments in
    their result buffers, and with the arguments as launched. -/
theorem algebraic : Cert.algebraic_KernelIdeal_ReferenceIdeal := by
  intro m ρ m' ρ' _ hagree
  refine ⟨fun c => Cert.Gcn.network (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2))
      (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)), ?_, ?_⟩
  · refine (θ_run Cert.KernelIdeal.defs _ _).mono (fun r h c => ?_) (Cert.KernelIdeal.RunValue.run_final (F := Ideal) m ρ)
    exact ⟨(h c _ (Cert.KernelIdeal.Gen.mem_uc Cert.KernelIdeal.main_v60 (by decide))).trans (Cert.KernelIdeal.Walk.result_eq m ρ c),
      (h c _ (Cert.KernelIdeal.Gen.mem_uc Cert.KernelIdeal.main_arg0 (by decide))).trans (Cert.KernelIdeal.Gen.W8_main_arg0 m ρ c),
      (h c _ (Cert.KernelIdeal.Gen.mem_uc Cert.KernelIdeal.main_arg1 (by decide))).trans (Cert.KernelIdeal.Gen.W8_main_arg1 m ρ c),
      (h c _ (Cert.KernelIdeal.Gen.mem_uc Cert.KernelIdeal.main_arg2 (by decide))).trans (Cert.KernelIdeal.Gen.W8_main_arg2 m ρ c),
      (h c _ (Cert.KernelIdeal.Gen.mem_uc Cert.KernelIdeal.main_arg3 (by decide))).trans (Cert.KernelIdeal.Gen.W8_main_arg3 m ρ c),
      (h c _ (Cert.KernelIdeal.Gen.mem_uc Cert.KernelIdeal.main_arg4 (by decide))).trans (Cert.KernelIdeal.Gen.W8_main_arg4 m ρ c),
      (h c _ (Cert.KernelIdeal.Gen.mem_uc Cert.KernelIdeal.main_arg5 (by decide))).trans (Cert.KernelIdeal.Gen.W8_main_arg5 m ρ c)⟩
  · refine (θ_run Cert.ReferenceIdeal.defs _ _).mono (fun _ h c => ⟨(h c).1.trans ?_, (h c).2⟩)
      (Cert.ReferenceIdeal.ValueP.run (F := Ideal) m' ρ')
    rw [Cert.Gcn.reference_eq, (hagree c).1, (hagree c).2.1, (hagree c).2.2.1, (hagree c).2.2.2.1, (hagree c).2.2.2.2.1,
      (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
